-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.sign_bit.Statement Cert.KernelIdeal.S512x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S1000x2048 : Shape := ⟨2, ![1000, 2048]⟩
abbrev S1000 : Shape := ⟨1, ![1000]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S1000x2048 : S_.BroadcastsInDim S1000x2048 (![] : Fin 0 → Fin S1000x2048.rank)
  reducesTo_S1000x2048_S_d0_1 : S1000x2048.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000 .f32) (main_v13 : IVec S_ 1) (main_v16 : IVec S1000x2048 1) : IVec S_ 1 :=
  let main_c_5 : IVec S_ 1 := constantI S_ 1 1#1
  let main_v17 : IVec S_ 1 := (fun x v => Host.reduce IntOp.andi x v reducesTo_S1000x2048_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  main_v23

def fn {F : FTy → Type} [FloatOps F] (main_arg0 : FVec F S8192x2048 .f32) (main_arg1 : FVec F S2048x2048 .f32) (main_arg2 : FVec F S2048 .f32) (main_arg3 : FVec F S1000x2048 .f32) (main_arg4 : FVec F S1000 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S1000x2048 .f32 := Host.absf main_arg3
  let main_cst_4 : FVec F S_ .f32 := constant S_ .f32 0x7F800000#32
  let main_v15 : FVec F S1000x2048 .f32 := broadcastInDim S1000x2048 ![] bcast_S_S1000x2048 main_cst_4
  let main_v16 : IVec S1000x2048 1 := cmpf .olt main_v14 main_v15
  fn_part1 (F := F) main_arg4 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1000x2048 : Shape := ⟨2, ![1000, 2048]⟩
abbrev S1000 : Shape := ⟨1, ![1000]⟩
abbrev S_ : Shape := ⟨0, ![]⟩
abbrev S1x2048 : Shape := ⟨2, ![1, 2048]⟩
abbrev S512x2048 : Shape := ⟨2, ![512, 2048]⟩
abbrev S1x1 : Shape := ⟨2, ![1, 1]⟩
abbrev S2048x1000 : Shape := ⟨2, ![2048, 1000]⟩
abbrev S1x1000 : Shape := ⟨2, ![1, 1000]⟩
abbrev S8192x1000 : Shape := ⟨2, ![8192, 1000]⟩
abbrev S512x1000 : Shape := ⟨2, ![512, 1000]⟩

abbrev nBuf : Space → Nat
  | .hbm => 28
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S1000x2048, .f32⟩
  | .hbm, ⟨4, _⟩ => ⟨S1000, .f32⟩
  | .hbm, ⟨5, _⟩ => ⟨S2048x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S2048x1000, .f32⟩
  | .hbm, ⟨24, _⟩ => ⟨S2048x1000, .bf16⟩
  | .hbm, ⟨25, _⟩ => ⟨S1x1000, .f32⟩
  | .hbm, ⟨26, _⟩ => ⟨S8192x1000, .f32⟩
  | .hbm, ⟨27, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x1, .f32⟩
  | .local _ .vmem, ⟨9, _⟩ => ⟨S2048x1000, .bf16⟩
  | .local _ .vmem, ⟨10, _⟩ => ⟨S1x1000, .f32⟩
  | .local _ .vmem, ⟨11, _⟩ => ⟨S512x1000, .f32⟩
  | .local _ .vmem, ⟨12, _⟩ => ⟨S512x1000, .f32⟩
  | .local _ .vmem, ⟨13, _⟩ => ⟨S512x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [BitOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2048x1000 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reducesTo_S8192x2048_S_d0_1 : S8192x2048.ReducesTo [0, 1] S_
  shapeCasts_S_S1x1 : S_.ShapeCasts S1x1
  transposes_S1000x2048_S2048x1000_1_0 : S1000x2048.Transposes [1, 0] S2048x1000
  shapeCasts_S1000_S1x1000 : S1000.ShapeCasts S1x1000
  shapeCasts_S512x2048_S512x2048 : S512x2048.ShapeCasts S512x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2048x1000_S2048x1000_0_0 : ∀ a, (![0, 0] : Fin 2 → Nat) a + S2048x1000.size a ≤ S2048x1000.size a
  h_S2048x1000 : 0 < S2048x1000.numel
  shapeCasts_S2048x1000_S2048x1000 : S2048x1000.ShapeCasts S2048x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  inb_S512x1000_S512x1000_0_0 : ∀ a, (![0, 0] : Fin 2 → Nat) a + S512x1000.size a ≤ S512x1000.size a
  h_S512x1000 : 0 < S512x1000.numel
  dot_S512x2048_S2048x2048_S512x2048_1_0_0_1_n_n_wf : DotDims.WF S512x2048 S2048x2048 S512x2048 [1] [0] [0] [1] [] []
  dot_S512x2048_S2048x1000_S512x1000_1_0_0_1_n_n_wf : DotDims.WF S512x2048 S2048x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S8192x2048.size a
  hwx0_3 : ∀ i : grid0.Coords, EltTy.bits .f32 = 32 ∨ (Rect.block (s := S8192x2048) S512x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .f32 = 32 ∨ (Rect.block (s := S8192x2048) S512x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x1000.size a ≤ S2048x1000.size a
  hwx1_2 : ∀ i : grid1.Coords, EltTy.bits .bf16 = 32 ∨ (Rect.block (s := S2048x1000) S2048x1000.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1000.size a ≤ S1x1000.size a
  hwx1_3 : ∀ i : grid1.Coords, EltTy.bits .f32 = 32 ∨ (Rect.block (s := S1x1000) S1x1000.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1000.size a ≤ S8192x1000.size a
  hwx1_4 : ∀ i : grid1.Coords, EltTy.bits .f32 = 32 ∨ (Rect.block (s := S8192x1000) S512x1000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S8192x2048.size a
  hwx1_5 : ∀ i : grid1.Coords, EltTy.bits .f32 = 32 ∨ (Rect.block (s := S8192x2048) S512x2048.size (cc1_transform_5 i) (hinb1_5 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x1000_S512x1000_1_0_0_1_n_n : DotDims S512x2048 S2048x1000 S512x1000 where
  lhsContracting := [1]
  rhsContracting := [0]
  lhsNonContracting := [0]
  rhsNonContracting := [1]
  lhsBatch := []
  rhsBatch := []
  wf := dot_S512x2048_S2048x1000_S512x1000_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v9) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2048x1000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x1000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17_0) S512x1000.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17_1) S512x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1000x2048 : Shape := ⟨2, ![1000, 2048]⟩
abbrev S1000 : Shape := ⟨1, ![1000]⟩
abbrev S_ : Shape := ⟨0, ![]⟩
abbrev S1x2048 : Shape := ⟨2, ![1, 2048]⟩
abbrev S2048x1000 : Shape := ⟨2, ![2048, 1000]⟩
abbrev S8192x1000 : Shape := ⟨2, ![8192, 1000]⟩
abbrev S1x1000 : Shape := ⟨2, ![1, 1000]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S2048, .f32⟩
  | .hbm, ⟨3, _⟩ => ⟨S1000x2048, .f32⟩
  | .hbm, ⟨4, _⟩ => ⟨S1000, .f32⟩
  | .hbm, ⟨5, _⟩ => ⟨S2048x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S2048x1000, .f32⟩
  | .hbm, ⟨34, _⟩ => ⟨S8192x1000, .f32⟩
  | .hbm, ⟨35, _⟩ => ⟨S1x1000, .f32⟩
  | .hbm, ⟨36, _⟩ => ⟨S8192x1000, .f32⟩
  | .hbm, ⟨37, _⟩ => ⟨S8192x1000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_cst : Ref sig .tc := ⟨.hbm, 30, rfl⟩
abbrev main_call0_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  reducesTo_S2048x2048_S_d0_1 : S2048x2048.ReducesTo [0, 1] S_
  h_S_ : 0 < S_.numel
  bcast_S_S2048x2048 : S_.BroadcastsInDim S2048x2048 (![] : Fin 0 → Fin S2048x2048.rank)
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  reducesTo_S8192x2048_S_d0_1 : S8192x2048.ReducesTo [0, 1] S_
  bcast_S_S8192x2048 : S_.BroadcastsInDim S8192x2048 (![] : Fin 0 → Fin S8192x2048.rank)
  transposes_S1000x2048_S2048x1000_1_0 : S1000x2048.Transposes [1, 0] S2048x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  dot_S8192x2048_S2048x2048_S8192x2048_1_0_0_1_n_n_wf : DotDims.WF S8192x2048 S2048x2048 S8192x2048 [1] [0] [0] [1] [] []
  dot_S8192x2048_S2048x1000_S8192x1000_1_0_0_1_n_n_wf : DotDims.WF S8192x2048 S2048x1000 S8192x1000 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x1000_S8192x1000_1_0_0_1_n_n : DotDims S8192x2048 S2048x1000 S8192x1000 where
  lhsContracting := [1]
  rhsContracting := [0]
  lhsNonContracting := [0]
  rhsNonContracting := [1]
  lhsBatch := []
  rhsBatch := []
  wf := dot_S8192x2048_S2048x1000_S8192x1000_1_0_0_1_n_n_wf

class Facts : Prop extends Facts₀ where

variable [Facts]
-- ==== Proof.Spec.lean ====
/-
  A two-layer network with sign-binarized weights and activations, as one function of its five arrays, at the exact
  extended reals.

  With `s₁` the mean of `|W1|` (the sum over all entries divided by their number), the hidden pre-activation is
  `h (p, q) = Σ_e x (p, e) · bin (W1 (q, e)) s₁ + b1 q`; with `s₂` the mean of `|h|` the activation is
  `a (p, q) = max (bin (h (p, q)) s₂) 0`, and the output is `o (p, r) = Σ_e a (p, e) · W2 (r, e) + b2 r`.
  The binarization `bin` is a parameter: one program computes `sign t · s`, the other `sign (t / s) · s`.

  The law that joins them: for a real `t` and a real `s ≥ 0`, `sign (t / s) · s = sign t · s`.  At `s = 0` both
  sides are a finite sign times zero; at `s > 0` dividing by `s` does not change the sign.  The law fails at
  infinities (an infinite entry makes the mean infinite, and then `t / s` is zero for every finite `t`), so it is
  used only where the entries are real: the weights by hypothesis, the pre-activations as finite sums of products of
  reals.
-/
import Idealize.ShloMosaic.PureOps.Ideal
import Idealize.ShloMosaic.PureOps.Ideal.Laws
import Idealize.ShloMosaic.Lib.ValueIdx

noncomputable section

namespace Cert.BinaryNet

open Idealize.ShloMosaic Idealize.ShloMosaic.ValueIdx

/-! ## The float literals the two programs spell -/

/-- The pattern `0x4A800000` denotes `2 ^ 22 = 4194304`, the number of entries of the first weight matrix. -/
theorem ofBits_count1 : Ideal.ofBits .f32 0x4A800000#32 = ((4194304 : ℝ) : EReal) := by
  simp [Ideal.ofBits, Ideal.ieee, -EReal.coe_mul]; norm_num

/-- The pattern `0x4B800000` denotes `2 ^ 24 = 16777216`, the number of hidden pre-activations. -/
theorem ofBits_count2 : Ideal.ofBits .f32 0x4B800000#32 = ((16777216 : ℝ) : EReal) := by
  simp [Ideal.ofBits, Ideal.ieee, -EReal.coe_mul]; norm_num

/-! ## Real-valued extended reals -/

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, EReal.coe_zero.symm⟩

/-- A finite sum of reals is a real. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The sign of a real is a real. -/
theorem IsReal.sign {x : EReal} (hx : IsReal x) : IsReal (Ideal.sign x) := by
  obtain ⟨a, rfl⟩ := hx; exact ⟨_, Ideal.sign_coe a⟩

/-! ## The two binarizations and the law between them -/

/-- `sign t · s`. -/
def binK (t s : EReal) : EReal := Ideal.sign t * s

/-- `sign (t / s) · s`. -/
def binR (t s : EReal) : EReal := Ideal.sign (Ideal.div t s) * s

/-- For a real `t` and a real `s ≥ 0` the two binarizations agree. -/
theorem binR_eq_binK (t s : ℝ) (hs : 0 ≤ s) : binR (t : EReal) (s : EReal) = binK (t : EReal) (s : EReal) := by
  unfold binR binK
  rcases hs.eq_or_lt with h0 | hpos
  · rw [← h0, EReal.coe_zero, mul_zero, mul_zero]
  · rw [Ideal.div_coe hpos.ne', ← EReal.coe_mul, Ideal.sign_coe, Ideal.sign_coe, sign_mul,
      sign_pos (one_div_pos.mpr hpos), mul_one]

theorem IsReal.binK {t s : EReal} (ht : IsReal t) (hs : IsReal s) : IsReal (binK t s) := ht.sign.mul hs

/-! ## The mean of the absolute values -/

/-- The mean of `|a|` as both programs compute it: zero plus the sum of `max (a j) (-(a j))` over every index, divided by
    the literal `d`. -/
def scale {s : Shape} (d : BitVec 32) (a : s.Idx → EReal) : EReal :=
  Ideal.div (Ideal.ofBits .f32 0x00000000#32 + ∑ j : s.Idx, max (a j) (-(a j))) (Ideal.ofBits .f32 d)

/-- Of a real array, over a literal that denotes a positive real, the mean of the absolute values is a nonnegative real. -/
theorem scale_real_nonneg {s : Shape} (d : BitVec 32) (D : ℝ) (hD : 0 < D) (hd : Ideal.ofBits .f32 d = (D : EReal))
    (a : s.Idx → EReal) (ha : ∀ j, IsReal (a j)) : ∃ r : ℝ, 0 ≤ r ∧ scale d a = (r : EReal) := by
  have hsum : ∃ r : ℝ, 0 ≤ r ∧ (∑ j : s.Idx, max (a j) (-(a j))) = (r : EReal) := by
    refine Finset.sum_induction (fun j => max (a j) (-(a j))) (fun x => ∃ r : ℝ, 0 ≤ r ∧ x = (r : EReal)) ?_ ?_ ?_
    · rintro _ _ ⟨u, hu, rfl⟩ ⟨v, hv, rfl⟩
      exact ⟨u + v, add_nonneg hu hv, (EReal.coe_add u v).symm⟩
    · exact ⟨0, le_refl 0, EReal.coe_zero.symm⟩
    · intro j _
      obtain ⟨u, hu⟩ := ha j
      exact ⟨|u|, abs_nonneg u, by rw [hu, abs_eq_max_neg, EReal.coe_strictMono.monotone.map_max, EReal.coe_neg]⟩
  obtain ⟨r, hr, hsr⟩ := hsum
  refine ⟨r * (1 / D), mul_nonneg hr (one_div_pos.mpr hD).le, ?_⟩
  unfold scale
  rw [hd, Ideal.div_coe hD.ne', Ideal.ofBits_zero_f32, zero_add, hsr, ← EReal.coe_mul]

/-! ## The network -/

section Net

variable (bin : EReal → EReal → EReal)
variable (x : (⟨2, ![8192, 2048]⟩ : Shape).Idx → EReal) (W1 : (⟨2, ![2048, 2048]⟩ : Shape).Idx → EReal)
  (b1 : (⟨1, ![2048]⟩ : Shape).Idx → EReal) (W2 : (⟨2, ![1000, 2048]⟩ : Shape).Idx → EReal)
  (b2 : (⟨1, ![1000]⟩ : Shape).Idx → EReal)

/-- The hidden pre-activation at row `p`, unit `q`. -/
def hid (p : Fin 8192) (q : Fin 2048) : EReal :=
  (∑ e : Fin 2048, x (ix2 p e) * bin (W1 (ix2 q e)) (scale 0x4A800000#32 W1)) + b1 (ix1 q)

/-- The pre-activations as an array. -/
def hidArr : (⟨2, ![8192, 2048]⟩ : Shape).Idx → EReal := fun i => hid bin x W1 b1 (i 0) (i 1)

/-- The binarized, rectified activation at row `p`, unit `q`. -/
def act (p : Fin 8192) (q : Fin 2048) : EReal :=
  max (bin (hid bin x W1 b1 p q) (scale 0x4B800000#32 (hidArr bin x W1 b1))) (Ideal.ofBits .f32 0x00000000#32)

/-- The activations as an array: the second result. -/
def actArr : (⟨2, ![8192, 2048]⟩ : Shape).Idx → EReal := fun i => act bin x W1 b1 (i 0) (i 1)

/-- The output at row `p`, class `r`. -/
def outp (p : Fin 8192) (r : Fin 1000) : EReal :=
  (∑ e : Fin 2048, act bin x W1 b1 p e * W2 (ix2 r e)) + b2 (ix1 r)

/-- The outputs as an array: the first result. -/
def outArr : (⟨2, ![8192, 1000]⟩ : Shape).Idx → EReal := fun i => outp bin x W1 b1 W2 b2 (i 0) (i 1)

end Net

/-! ## The two networks agree on real inputs -/

section Agree

variable (x : (⟨2, ![8192, 2048]⟩ : Shape).Idx → EReal) (W1 : (⟨2, ![2048, 2048]⟩ : Shape).Idx → EReal)
  (b1 : (⟨1, ![2048]⟩ : Shape).Idx → EReal) (W2 : (⟨2, ![1000, 2048]⟩ : Shape).Idx → EReal)
  (b2 : (⟨1, ![1000]⟩ : Shape).Idx → EReal)
  (hx : ∀ i, IsReal (x i)) (hW1 : ∀ i, IsReal (W1 i)) (hb1 : ∀ i, IsReal (b1 i))

include hW1 in
/-- The pre-activations agree: the weights are real and their mean absolute value is a nonnegative real. -/
theorem hid_agree (p : Fin 8192) (q : Fin 2048) : hid binR x W1 b1 p q = hid binK x W1 b1 p q := by
  obtain ⟨s, hs0, hs⟩ := scale_real_nonneg 0x4A800000#32 4194304 (by norm_num) ofBits_count1 W1 hW1
  unfold hid
  refine congrArg (· + b1 (ix1 q)) (Finset.sum_congr rfl fun e _ => ?_)
  obtain ⟨w, hw⟩ := hW1 (ix2 q e)
  rw [hw, hs, binR_eq_binK w s hs0]

include hx hW1 hb1 in
/-- Every pre-activation is a real: a finite sum of products of reals plus a real. -/
theorem hid_real (p : Fin 8192) (q : Fin 2048) : IsReal (hid binK x W1 b1 p q) := by
  obtain ⟨s, -, hs⟩ := scale_real_nonneg 0x4A800000#32 4194304 (by norm_num) ofBits_count1 W1 hW1
  unfold hid
  exact (IsReal.sum _ _ fun e _ => (hx _).mul ((hW1 _).binK ⟨s, hs⟩)).add (hb1 _)

include hW1 in
theorem hidArr_agree : hidArr binR x W1 b1 = hidArr binK x W1 b1 :=
  funext fun i => hid_agree x W1 b1 hW1 (i 0) (i 1)

include hx hW1 hb1 in
/-- The activations agree: the pre-activations are real and their mean absolute value is a nonnegative real. -/
theorem act_agree (p : Fin 8192) (q : Fin 2048) : act binR x W1 b1 p q = act binK x W1 b1 p q := by
  obtain ⟨s, hs0, hs⟩ := scale_real_nonneg 0x4B800000#32 16777216 (by norm_num) ofBits_count2 (hidArr binK x W1 b1)
    (fun i => hid_real x W1 b1 hx hW1 hb1 (i 0) (i 1))
  obtain ⟨h, hh⟩ := hid_real x W1 b1 hx hW1 hb1 p q
  unfold act
  rw [hidArr_agree x W1 b1 hW1, hid_agree x W1 b1 hW1 p q, hh, hs, binR_eq_binK h s hs0]

include hx hW1 hb1 in
theorem actArr_agree : actArr binR x W1 b1 = actArr binK x W1 b1 :=
  funext fun i => act_agree x W1 b1 hx hW1 hb1 (i 0) (i 1)

include hx hW1 hb1 in
/-- The outputs agree. -/
theorem outArr_agree : outArr binR x W1 b1 W2 b2 = outArr binK x W1 b1 W2 b2 := by
  funext i
  unfold outArr outp
  exact congrArg (· + b2 (ix1 (i 1))) (Finset.sum_congr rfl fun e _ =>
    congrArg (· * W2 (ix2 (i 1) e)) (act_agree x W1 b1 hx hW1 hb1 (i 0) e))

end Agree

end Cert.BinaryNet

end
-- ==== Proof.KernelRun.lean ====
/-
  The idealized kernel's run with its two results named.

  The program is a stretch of host operations, the first matrix-product region, a second stretch of host operations and
  the second region.  Its buffer contents at the four segment boundaries are a fold through the program: after the last
  region every unscoped buffer holds the fold's last value.  Read at the two result buffers, that value is what the
  second region's write-backs leave in its two output arrays; read at the five argument buffers it is the launch
  contents.  So every weakly fair execution ends with the first result at the second region's output array of window 4,
  the second result at its output array of window 5, and the arguments as launched.
-/
import proofs.«131798_j82660940578899_1_alg».proof.Proof.Gen.KernelIdeal.Frame

set_option maxRecDepth 16384

noncomputable section

namespace Cert.KernelIdeal.Outputs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first result's buffer is the array of the second region's window 4, so after that region it holds what the
    region's write-backs to that window leave. -/
theorem last_result0 (c : Dev nD) :
    W4 m ρ c (Proc.devRef .tc main_v17_0) = (dat1 (V3 m ρ) c).arrAt 4 cfg1.N :=
  W4_arr m ρ c 4

/-- The second result's buffer is the array of the second region's window 5. -/
theorem last_result1 (c : Dev nD) :
    W4 m ρ c (Proc.devRef .tc main_v17_1) = (dat1 (V3 m ρ) c).arrAt 5 cfg1.N :=
  W4_arr m ρ c 5

set_option backward.isDefEq.respectTransparency.types false in
/-- Every weakly fair execution terminates without a fault, the two results at the second region's output arrays and
    the five arguments as launched: the launch over the program's four segments, the last thread state read against the
    final memory at the two result buffers and the five argument buffers. -/
theorem run : θ_run defs (onTc (τ := τ) (main (F := F))) ⟨m, fun _ => 0, ρ⟩ (fun r => ∀ c : Dev nD,
      r.2.mem ((c.tc : Thread nD τ).loc main_v17_0) = (dat1 (V3 m ρ) c).arrAt 4 cfg1.N
      ∧ r.2.mem ((c.tc : Thread nD τ).loc main_v17_1) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v17_0 (by decide))).trans (last_result0 m ρ c),
       (h c _ (mem_uc main_v17_1 (by decide))).trans (last_result1 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Outputs

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.Stage1.lean ====
/-
  The first region's output array as one function of the arrays the region finds.

  The region walks sixteen blocks of 512 rows.  At block `t` the body multiplies rows `512 t … 512 t + 511` of the left
  array by the whole right array and adds the bias row, so entry `(r, q)` of what it writes back is
  `Σ_e X (512 t + r, e) · Wt (e, q) + B (0, q)`: entry `(512 t + r, q)` of the affine map `X · Wt + B` of the whole
  arrays.  The sixteen blocks cover every row (row `p` is in block `p / 512`), so after the region the output array is
  that affine map everywhere.
-/
import proofs.«131798_j82660940578899_1_alg».proof.Proof.Gen.KernelIdeal.Frame
import proofs.«131798_j82660940578899_1_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage1

open Cert.KernelIdeal Cert.KernelIdeal.Gen
open Idealize.ShloMosaic Idealize.ShloMosaic.TcCoe Idealize.SL.Sem Idealize.ShloMosaic.ValueIdx
open Idealize.ShloMosaic.Pipeline (Dat)

/-! ## The affine map -/

/-- Row `p` of `X` against column `q` of `Wt`, plus entry `q` of the bias row. -/
def affine (X : S8192x2048.Idx → EReal) (Wt : S2048x2048.Idx → EReal) (B : S1x2048.Idx → EReal)
    (p : Fin 8192) (q : Fin 2048) : EReal :=
  (∑ e : Fin 2048, X (ix2 p e) * Wt (ix2 e q)) + B (ix2 (0 : Fin 1) q)

/-- The affine map as an array. -/
def affineArr (X : S8192x2048.Idx → EReal) (Wt : S2048x2048.Idx → EReal) (B : S1x2048.Idx → EReal) :
    S8192x2048.Idx → EReal := fun i => affine X Wt B (i 0) (i 1)

/-! ## The body's value at an index -/

/-- Entry `(p, q)` of the body's result: row `p` of the loaded left block against column `q` of the loaded right
    array, plus the bias row at `q` (the change of float format is the identity on the exact values). -/
theorem pay_apply (x0 : Vec Ideal S512x2048 .f32) (x1 : Vec Ideal S2048x2048 .bf16) (x2 : Vec Ideal S1x2048 .f32)
    (p : Fin 512) (q : Fin 2048) :
    k0_pay1 x0 x1 x2 (ix2 p q) = (∑ e : Fin 2048, x0 (ix2 p e) * x1 (ix2 e q)) + x2 (ix2 (0 : Fin 1) q) := by
  unfold k0_pay1
  show FloatOps.matmul (Cert.LibMatmulNN.dims dot_S512x2048_S2048x2048_S512x2048_1_0_0_1_n_n_wf) none
      (truncf .bf16 x0 bitsLt_bf16_f32) (shapeCast S2048x2048 x1 shapeCasts_S2048x2048_S2048x2048)
      (constant (F := Ideal) S512x2048 .f32 0x00000000#32) (ix2 p q)
    + broadcastTo S512x2048 (shapeCast S1x2048 x2 shapeCasts_S1x2048_S1x2048) broadcasts_S1x2048_S512x2048 (ix2 p q) = _
  rw [Cert.LibMatmulNN.matmul_zero_apply, shapeCast_self, shapeCast_self, broadcastTo_1b_ab_apply]
  rfl

/-! ## Where each window's block sits -/

/-- The index maps over the grid: the left array's and the output's block row is the point's number, every other block
    index is zero. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem hz : (![0, 0] : Fin 2 → Nat) = fun _ => 0 := funext fun a => by fin_cases a <;> rfl

section
variable (V : (c : Dev nD) → (b : Ref sig .tc) → Buf (Elt Ideal) ((c : Thread nD τ).loc b))

/-- Entry `(p, e)` of the left block at point `t` is entry `(512 t + p, e)` of the left array. -/
theorem read_left (c : Dev nD) (t : Fin cfg0.N) (p : Fin 512) (e : Fin 2048) (i : S8192x2048.Idx)
    (h0 : (i 0).val = t.val * 512 + p.val) (h1 : (i 1).val = e.val) :
    iblk0 V c 0 t (ix2 p e) = V c main_arg0 i := by
  obtain ⟨a0, a1, -⟩ := index_facts t
  show V c main_arg0 (((cfg0.win 0).blk t).view.emb (ix2 p e)) = V c main_arg0 i
  refine congrArg (V c main_arg0) ?_
  funext a; apply Fin.ext
  match a with
  | ⟨0, _⟩ => show win0_0.index t (0 : Fin 2) * 512 + 1 * p.val = (i 0).val; omega
  | ⟨1, _⟩ => show win0_0.index t (1 : Fin 2) * 2048 + 1 * e.val = (i 1).val; omega

/-- The right window's block at every point is the whole right array. -/
theorem read_right (c : Dev nD) (t : Fin cfg0.N) (e : Fin 2048) (q : Fin 2048) (i : S2048x2048.Idx)
    (h0 : (i 0).val = e.val) (h1 : (i 1).val = q.val) :
    iblk0 V c 1 t (ix2 e q) = V c main_v7 i := by
  obtain ⟨-, -, a0, a1, -⟩ := index_facts t
  show V c main_v7 (((cfg0.win 1).blk t).view.emb (ix2 e q)) = V c main_v7 i
  refine congrArg (V c main_v7) ?_
  funext a; apply Fin.ext
  match a with
  | ⟨0, _⟩ => show win0_1.index t (0 : Fin 2) * 2048 + 1 * e.val = (i 0).val; omega
  | ⟨1, _⟩ => show win0_1.index t (1 : Fin 2) * 2048 + 1 * q.val = (i 1).val; omega

/-- The bias window's block at every point is the whole bias row. -/
theorem read_bias (c : Dev nD) (t : Fin cfg0.N) (q : Fin 2048) (i : S1x2048.Idx)
    (h0 : (i 0).val = 0) (h1 : (i 1).val = q.val) :
    iblk0 V c 2 t (ix2 (0 : Fin 1) q) = V c main_v8 i := by
  obtain ⟨-, -, -, -, a0, a1, -⟩ := index_facts t
  show V c main_v8 (((cfg0.win 2).blk t).view.emb (ix2 (0 : Fin 1) q)) = V c main_v8 i
  refine congrArg (V c main_v8) ?_
  funext a; apply Fin.ext
  match a with
  | ⟨0, _⟩ => show win0_2.index t (0 : Fin 2) * 1 + 1 * 0 = (i 0).val; omega
  | ⟨1, _⟩ => show win0_2.index t (1 : Fin 2) * 2048 + 1 * q.val = (i 1).val; omega

/-! ## What a point writes back, and the array after the region -/

/-- Point `t` writes back block `t` of the affine map of the arrays the region finds. -/
theorem flushed_eq (c : Dev nD) (t : Fin cfg0.N) :
    (dat0 V c).flushed 3 t
      = ((cfg0.win 3).blk t).view.read (Elt Ideal) (affineArr (V c main_arg0) (V c main_v7) (V c main_v8)) := by
  show (cfg0.win 3).cut (grid0.coords t) ((dat0 V c).after 3 t) = _
  rw [after0_3]
  unfold out0_3
  rw [View.canon_unit_zero hz]
  simp only [View.ld_unit_zero (S := S512x2048) hz, View.ld_unit_zero (S := S2048x2048) hz,
    View.ld_unit_zero (S := S1x2048) hz]
  funext j
  obtain ⟨-, -, -, -, -, -, a30, a31⟩ := index_facts t
  show k0_pay1 (iblk0 V c 0 t) (iblk0 V c 1 t) (iblk0 V c 2 t) j
    = affineArr (V c main_arg0) (V c main_v7) (V c main_v8) (((cfg0.win 3).blk t).view.emb j)
  have hrow : ((((cfg0.win 3).blk t).view.emb j) 0).val = t.val * 512 + (j 0).val := by
    show win0_3.index t (0 : Fin 2) * 512 + 1 * (j 0).val = _; omega
  have hcol : ((((cfg0.win 3).blk t).view.emb j) 1).val = (j 1).val := by
    show win0_3.index t (1 : Fin 2) * 2048 + 1 * (j 1).val = _; omega
  refine (congrArg (k0_pay1 (iblk0 V c 0 t) (iblk0 V c 1 t) (iblk0 V c 2 t)) (eq_ix2 (n0 := 512) (n1 := 2048) j)).trans ?_
  refine (pay_apply (iblk0 V c 0 t) (iblk0 V c 1 t) (iblk0 V c 2 t) (j 0) (j 1)).trans ?_
  unfold affineArr affine
  refine congrArg₂ (· + ·) (Finset.sum_congr rfl fun e _ => congrArg₂ (· * ·) ?_ ?_) ?_
  · exact read_left V c t (j 0) e _ hrow rfl
  · exact read_right V c t e (j 1) _ rfl hcol
  · exact read_bias V c t (j 1) _ rfl hcol

/-- An index of the output array is in point `t`'s block iff each coordinate is in the block's range on its axis. -/
theorem mem_blk (t : Fin cfg0.N) (i : S8192x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v9).slice (win0_3.rect t)).set ↔ _
  rw [View.set_slice_whole, Rect.mem_set_unit]
  exact Iff.rfl

/-- Every index of the output array is in some point's block: row `p` is in block `p / 512`. -/
theorem cover (i : S8192x2048.Idx) :
    ∃ t : Fin cfg0.N, (cfg0.win 3).flush t = true ∧ i ∈ ((cfg0.win 3).blk t).view.set := by
  have hi0 : (i 0).val < 8192 := (i 0).isLt
  have hi1 : (i 1).val < 2048 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, -, -, a30, a31⟩ := index_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512; omega
  | ⟨1, _⟩ =>
    show win0_3.index t (1 : Fin 2) * 2048 ≤ (i 1).val ∧ (i 1).val < win0_3.index t (1 : Fin 2) * 2048 + 2048; omega

/-- After the region the output array is the affine map of the arrays the region found. -/
theorem array_eq (c : Dev nD) :
    (dat0 V c).arrAt 3 cfg0.N = affineArr (V c main_arg0) (V c main_v7) (V c main_v8) :=
  (dat0 V c).arrAt_eq_of_cover 3 _ (fun t _ => flushed_eq V c t) cover

end

end Cert.KernelIdeal.Stage1

end
-- ==== Proof.Stage2.lean ====
/-
  The second region's two output arrays as functions of the arrays the region finds.

  At block `t` (rows `512 t … 512 t + 511`) the body takes the sign of each entry of the left block (`-1` below zero, `1`
  above, the entry itself at zero: the exact sign), multiplies by the one entry `s` of the scale operand and rectifies:
  `a = max (sign h · s) 0`, written back as the block of the second output.  It multiplies those rows by the whole
  right array and adds the bias row, written back as the block of the first output.  So entry `(512 t + r, q)` of the
  second output is `max (sign (H (512 t + r, q)) · s) 0` and entry `(512 t + r, k)` of the first is
  `Σ_e a (512 t + r, e) · Wt (e, k) + B (0, k)`.  The sixteen blocks cover every row of both arrays.
-/
import proofs.«131798_j82660940578899_1_alg».proof.Proof.Gen.KernelIdeal.Frame
import proofs.«131798_j82660940578899_1_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage2

open Cert.KernelIdeal Cert.KernelIdeal.Gen
open Idealize.ShloMosaic Idealize.ShloMosaic.TcCoe Idealize.SL.Sem Idealize.ShloMosaic.ValueIdx
open Idealize.ShloMosaic.Pipeline (Dat)

/-! ## The two maps -/

/-- The one index of a one-by-one array. -/
abbrev origin : S1x1.Idx := fun a => ⟨(![0, 0] : Fin 2 → Nat) a, inpos_S1x1_p0_0 a⟩

/-- The rectified binarization of `H (p, q)` with scale `s`. -/
def rectified (H : S8192x2048.Idx → EReal) (s : EReal) (p : Fin 8192) (q : Fin 2048) : EReal :=
  max (Ideal.sign (H (ix2 p q)) * s) (Ideal.ofBits .f32 0x00000000#32)

def rectifiedArr (H : S8192x2048.Idx → EReal) (s : EReal) : S8192x2048.Idx → EReal :=
  fun i => rectified H s (i 0) (i 1)

/-- Row `p` of the rectified binarization against column `k` of `Wt`, plus entry `k` of the bias row. -/
def scores (H : S8192x2048.Idx → EReal) (s : EReal) (Wt : S2048x1000.Idx → EReal) (B : S1x1000.Idx → EReal)
    (p : Fin 8192) (k : Fin 1000) : EReal :=
  (∑ e : Fin 2048, rectified H s p e * Wt (ix2 e k)) + B (ix2 (0 : Fin 1) k)

def scoresArr (H : S8192x2048.Idx → EReal) (s : EReal) (Wt : S2048x1000.Idx → EReal) (B : S1x1000.Idx → EReal) :
    S8192x1000.Idx → EReal := fun i => scores H s Wt B (i 0) (i 1)

/-! ## The body's two values at an index -/

/-- The activation payload at any index: the printed sign term is the exact sign, times the scale entry, rectified. -/
theorem pay_act_apply (x0 : Vec Ideal S512x2048 .f32) (x1 : Vec Ideal S1x1 .f32) (j : S512x2048.Idx) :
    k1_pay1 x0 x1 j = max (Ideal.sign (x0 j) * x1 origin) (Ideal.ofBits .f32 0x00000000#32) := by
  unfold k1_pay1
  simp only [shapeCast_self]
  exact congrArg (fun t : EReal => max (t * x1 origin) (Ideal.ofBits .f32 0x00000000#32)) (Ideal.jnp_sign_eq_sign_f32 (x0 j))

/-- The output payload at `(p, k)`: row `p` of the activation payload against column `k` of the loaded right array,
    plus the bias row at `k`. -/
theorem pay_out_apply (x0 : Vec Ideal S512x2048 .f32) (x1 : Vec Ideal S1x1 .f32) (x2 : Vec Ideal S2048x1000 .bf16)
    (x3 : Vec Ideal S1x1000 .f32) (p : Fin 512) (k : Fin 1000) :
    k1_pay2 x0 x1 x2 x3 (ix2 p k)
      = (∑ e : Fin 2048, k1_pay1 x0 x1 (ix2 p e) * x2 (ix2 e k)) + x3 (ix2 (0 : Fin 1) k) := by
  unfold k1_pay2
  show FloatOps.matmul (Cert.LibMatmulNN.dims dot_S512x2048_S2048x1000_S512x1000_1_0_0_1_n_n_wf) none
      (truncf .bf16 (k1_pay1 x0 x1) bitsLt_bf16_f32) (shapeCast S2048x1000 x2 shapeCasts_S2048x1000_S2048x1000)
      (constant (F := Ideal) S512x1000 .f32 0x00000000#32) (ix2 p k)
    + broadcastTo S512x1000 (shapeCast S1x1000 x3 shapeCasts_S1x1000_S1x1000) broadcasts_S1x1000_S512x1000 (ix2 p k) = _
  rw [Cert.LibMatmulNN.matmul_zero_apply, shapeCast_self, shapeCast_self, broadcastTo_1b_ab_apply]
  rfl

/-! ## Where each window's block sits -/

/-- The index maps over the grid: the left array's and both outputs' block row is the point's number, every other block
    index is zero. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

theorem hz : (![0, 0] : Fin 2 → Nat) = fun _ => 0 := funext fun a => by fin_cases a <;> rfl

section
variable (V : (c : Dev nD) → (b : Ref sig .tc) → Buf (Elt Ideal) ((c : Thread nD τ).loc b))

/-- Entry `(p, e)` of the left block at point `t` is entry `(512 t + p, e)` of the left array. -/
theorem read_left (c : Dev nD) (t : Fin cfg1.N) (p : Fin 512) (e : Fin 2048) (i : S8192x2048.Idx)
    (h0 : (i 0).val = t.val * 512 + p.val) (h1 : (i 1).val = e.val) :
    iblk1 V c 0 t (ix2 p e) = V c main_v9 i := by
  obtain ⟨a0, a1, -⟩ := index_facts t
  show V c main_v9 (((cfg1.win 0).blk t).view.emb (ix2 p e)) = V c main_v9 i
  refine congrArg (V c main_v9) ?_
  funext a; apply Fin.ext
  match a with
  | ⟨0, _⟩ => show win1_0.index t (0 : Fin 2) * 512 + 1 * p.val = (i 0).val; omega
  | ⟨1, _⟩ => show win1_0.index t (1 : Fin 2) * 2048 + 1 * e.val = (i 1).val; omega

/-- The scale window's block at every point is the whole one-by-one array. -/
theorem read_scale (c : Dev nD) (t : Fin cfg1.N) : iblk1 V c 1 t origin = V c main_v13 origin := by
  obtain ⟨-, -, a0, a1, -⟩ := index_facts t
  show V c main_v13 (((cfg1.win 1).blk t).view.emb origin) = V c main_v13 origin
  refine congrArg (V c main_v13) ?_
  funext a; apply Fin.ext
  match a with
  | ⟨0, _⟩ => show win1_1.index t (0 : Fin 2) * 1 + 1 * 0 = 0; omega
  | ⟨1, _⟩ => show win1_1.index t (1 : Fin 2) * 1 + 1 * 0 = 0; omega

/-- The right window's block at every point is the whole right array. -/
theorem read_right (c : Dev nD) (t : Fin cfg1.N) (e : Fin 2048) (k : Fin 1000) (i : S2048x1000.Idx)
    (h0 : (i 0).val = e.val) (h1 : (i 1).val = k.val) :
    iblk1 V c 2 t (ix2 e k) = V c main_v15 i := by
  obtain ⟨-, -, -, -, a0, a1, -⟩ := index_facts t
  show V c main_v15 (((cfg1.win 2).blk t).view.emb (ix2 e k)) = V c main_v15 i
  refine congrArg (V c main_v15) ?_
  funext a; apply Fin.ext
  match a with
  | ⟨0, _⟩ => show win1_2.index t (0 : Fin 2) * 2048 + 1 * e.val = (i 0).val; omega
  | ⟨1, _⟩ => show win1_2.index t (1 : Fin 2) * 1000 + 1 * k.val = (i 1).val; omega

/-- The bias window's block at every point is the whole bias row. -/
theorem read_bias (c : Dev nD) (t : Fin cfg1.N) (k : Fin 1000) (i : S1x1000.Idx)
    (h0 : (i 0).val = 0) (h1 : (i 1).val = k.val) :
    iblk1 V c 3 t (ix2 (0 : Fin 1) k) = V c main_v16 i := by
  obtain ⟨-, -, -, -, -, -, a0, a1, -⟩ := index_facts t
  show V c main_v16 (((cfg1.win 3).blk t).view.emb (ix2 (0 : Fin 1) k)) = V c main_v16 i
  refine congrArg (V c main_v16) ?_
  funext a; apply Fin.ext
  match a with
  | ⟨0, _⟩ => show win1_3.index t (0 : Fin 2) * 1 + 1 * 0 = (i 0).val; omega
  | ⟨1, _⟩ => show win1_3.index t (1 : Fin 2) * 1000 + 1 * k.val = (i 1).val; omega

/-- The activation payload of point `t`'s blocks at `(p, e)` is the rectified binarization of the left array at row
    `512 t + p`, with the scale array's one entry. -/
theorem act_at (c : Dev nD) (t : Fin cfg1.N) (p : Fin 512) (e : Fin 2048) (P : Fin 8192) (hP : P.val = t.val * 512 + p.val) :
    k1_pay1 (iblk1 V c 0 t) (iblk1 V c 1 t) (ix2 p e) = rectified (V c main_v9) (V c main_v13 origin) P e :=
  (pay_act_apply (iblk1 V c 0 t) (iblk1 V c 1 t) (ix2 p e)).trans
    (congrArg₂ (fun a b => max (Ideal.sign a * b) (Ideal.ofBits .f32 0x00000000#32))
      (read_left V c t p e (ix2 P e) hP rfl) (read_scale V c t))

/-! ## What a point writes back, and the arrays after the region -/

/-- Point `t` writes back, to the second output, block `t` of the rectified binarization. -/
theorem flushed_act_eq (c : Dev nD) (t : Fin cfg1.N) :
    (dat1 V c).flushed 5 t
      = ((cfg1.win 5).blk t).view.read (Elt Ideal) (rectifiedArr (V c main_v9) (V c main_v13 origin)) := by
  show (cfg1.win 5).cut (grid1.coords t) ((dat1 V c).after 5 t) = _
  rw [after1_5]
  unfold out1_5
  rw [View.canon_unit_zero hz]
  simp only [View.ld_unit_zero (S := S512x2048) hz, View.ld_unit_zero (S := S1x1) hz]
  funext j
  obtain ⟨-, -, -, -, -, -, -, -, -, -, a50, a51⟩ := index_facts t
  show k1_pay1 (iblk1 V c 0 t) (iblk1 V c 1 t) j
    = rectifiedArr (V c main_v9) (V c main_v13 origin) (((cfg1.win 5).blk t).view.emb j)
  have hrow : ((((cfg1.win 5).blk t).view.emb j) 0).val = t.val * 512 + (j 0).val := by
    show win1_5.index t (0 : Fin 2) * 512 + 1 * (j 0).val = _; omega
  have hcol : ((((cfg1.win 5).blk t).view.emb j) 1).val = (j 1).val := by
    show win1_5.index t (1 : Fin 2) * 2048 + 1 * (j 1).val = _; omega
  refine (congrArg (k1_pay1 (iblk1 V c 0 t) (iblk1 V c 1 t)) (eq_ix2 (n0 := 512) (n1 := 2048) j)).trans ?_
  refine (act_at V c t (j 0) (j 1) ((((cfg1.win 5).blk t).view.emb j) 0) hrow).trans ?_
  unfold rectifiedArr rectified
  exact congrArg (fun i => max (Ideal.sign (V c main_v9 i) * V c main_v13 origin) (Ideal.ofBits .f32 0x00000000#32))
    (funext fun a => Fin.ext (by match a with | ⟨0, _⟩ => rfl | ⟨1, _⟩ => exact hcol.symm))

/-- Point `t` writes back, to the first output, block `t` of the scores. -/
theorem flushed_out_eq (c : Dev nD) (t : Fin cfg1.N) :
    (dat1 V c).flushed 4 t
      = ((cfg1.win 4).blk t).view.read (Elt Ideal)
          (scoresArr (V c main_v9) (V c main_v13 origin) (V c main_v15) (V c main_v16)) := by
  show (cfg1.win 4).cut (grid1.coords t) ((dat1 V c).after 4 t) = _
  rw [after1_4]
  unfold out1_4
  rw [View.canon_unit_zero hz]
  simp only [View.ld_unit_zero (S := S512x2048) hz, View.ld_unit_zero (S := S1x1) hz,
    View.ld_unit_zero (S := S2048x1000) hz, View.ld_unit_zero (S := S1x1000) hz]
  funext j
  obtain ⟨-, -, -, -, -, -, -, -, a40, a41, -⟩ := index_facts t
  show k1_pay2 (iblk1 V c 0 t) (iblk1 V c 1 t) (iblk1 V c 2 t) (iblk1 V c 3 t) j
    = scoresArr (V c main_v9) (V c main_v13 origin) (V c main_v15) (V c main_v16) (((cfg1.win 4).blk t).view.emb j)
  have hrow : ((((cfg1.win 4).blk t).view.emb j) 0).val = t.val * 512 + (j 0).val := by
    show win1_4.index t (0 : Fin 2) * 512 + 1 * (j 0).val = _; omega
  have hcol : ((((cfg1.win 4).blk t).view.emb j) 1).val = (j 1).val := by
    show win1_4.index t (1 : Fin 2) * 1000 + 1 * (j 1).val = _; omega
  refine (congrArg (k1_pay2 (iblk1 V c 0 t) (iblk1 V c 1 t) (iblk1 V c 2 t) (iblk1 V c 3 t))
    (eq_ix2 (n0 := 512) (n1 := 1000) j)).trans ?_
  refine (pay_out_apply (iblk1 V c 0 t) (iblk1 V c 1 t) (iblk1 V c 2 t) (iblk1 V c 3 t) (j 0) (j 1)).trans ?_
  unfold scoresArr scores
  refine congrArg₂ (· + ·) (Finset.sum_congr rfl fun e _ => congrArg₂ (· * ·) ?_ ?_) ?_
  · exact act_at V c t (j 0) e ((((cfg1.win 4).blk t).view.emb j) 0) hrow
  · exact read_right V c t e (j 1) _ rfl hcol
  · exact read_bias V c t (j 1) _ rfl hcol

/-- An index of the second output is in point `t`'s block iff each coordinate is in the block's range. -/
theorem mem_blk_act (t : Fin cfg1.N) (i : S8192x2048.Idx) :
    i ∈ ((cfg1.win 5).blk t).view.set ↔ ∀ a : Fin 2, win1_5.index t a * S512x2048.size a ≤ (i a).val
      ∧ (i a).val < win1_5.index t a * S512x2048.size a + S512x2048.size a := by
  show i ∈ ((View.whole main_v17_1).slice (win1_5.rect t)).set ↔ _
  rw [View.set_slice_whole, Rect.mem_set_unit]
  exact Iff.rfl

/-- An index of the first output is in point `t`'s block iff each coordinate is in the block's range. -/
theorem mem_blk_out (t : Fin cfg1.N) (i : S8192x1000.Idx) :
    i ∈ ((cfg1.win 4).blk t).view.set ↔ ∀ a : Fin 2, win1_4.index t a * S512x1000.size a ≤ (i a).val
      ∧ (i a).val < win1_4.index t a * S512x1000.size a + S512x1000.size a := by
  show i ∈ ((View.whole main_v17_0).slice (win1_4.rect t)).set ↔ _
  rw [View.set_slice_whole, Rect.mem_set_unit]
  exact Iff.rfl

/-- Every index of the second output is in some point's block: row `p` is in block `p / 512`. -/
theorem cover_act (i : S8192x2048.Idx) :
    ∃ t : Fin cfg1.N, (cfg1.win 5).flush t = true ∧ i ∈ ((cfg1.win 5).blk t).view.set := by
  have hi0 : (i 0).val < 8192 := (i 0).isLt
  have hi1 : (i 1).val < 2048 := (i 1).isLt
  obtain ⟨t, ht⟩ : ∃ t : Fin cfg1.N, t.val = (i 0).val / 512 :=
    ⟨⟨(i 0).val / 512, by rw [show cfg1.N = 16 from N_1]; omega⟩, rfl⟩
  obtain ⟨-, -, -, -, -, -, -, -, -, -, a50, a51⟩ := index_facts t
  refine ⟨t, flush1_5 t, ?_⟩
  rw [mem_blk_act]
  intro a
  match a with
  | ⟨0, _⟩ =>
    show win1_5.index t (0 : Fin 2) * 512 ≤ (i 0).val ∧ (i 0).val < win1_5.index t (0 : Fin 2) * 512 + 512; omega
  | ⟨1, _⟩ =>
    show win1_5.index t (1 : Fin 2) * 2048 ≤ (i 1).val ∧ (i 1).val < win1_5.index t (1 : Fin 2) * 2048 + 2048; omega

/-- Every index of the first output is in some point's block. -/
theorem cover_out (i : S8192x1000.Idx) :
    ∃ t : Fin cfg1.N, (cfg1.win 4).flush t = true ∧ i ∈ ((cfg1.win 4).blk t).view.set := by
  have hi0 : (i 0).val < 8192 := (i 0).isLt
  have hi1 : (i 1).val < 1000 := (i 1).isLt
  obtain ⟨t, ht⟩ : ∃ t : Fin cfg1.N, t.val = (i 0).val / 512 :=
    ⟨⟨(i 0).val / 512, by rw [show cfg1.N = 16 from N_1]; omega⟩, rfl⟩
  obtain ⟨-, -, -, -, -, -, -, -, a40, a41, -⟩ := index_facts t
  refine ⟨t, flush1_4 t, ?_⟩
  rw [mem_blk_out]
  intro a
  match a with
  | ⟨0, _⟩ =>
    show win1_4.index t (0 : Fin 2) * 512 ≤ (i 0).val ∧ (i 0).val < win1_4.index t (0 : Fin 2) * 512 + 512; omega
  | ⟨1, _⟩ =>
    show win1_4.index t (1 : Fin 2) * 1000 ≤ (i 1).val ∧ (i 1).val < win1_4.index t (1 : Fin 2) * 1000 + 1000; omega

/-- After the region the second output is the rectified binarization of the left array the region found. -/
theorem act_array_eq (c : Dev nD) :
    (dat1 V c).arrAt 5 cfg1.N = rectifiedArr (V c main_v9) (V c main_v13 origin) :=
  (dat1 V c).arrAt_eq_of_cover 5 _ (fun t _ => flushed_act_eq V c t) cover_act

/-- After the region the first output is the scores of the arrays the region found. -/
theorem out_array_eq (c : Dev nD) :
    (dat1 V c).arrAt 4 cfg1.N = scoresArr (V c main_v9) (V c main_v13 origin) (V c main_v15) (V c main_v16) :=
  (dat1 V c).arrAt_eq_of_cover 4 _ (fun t _ => flushed_out_eq V c t) cover_out

end

end Cert.KernelIdeal.Stage2

end
-- ==== Proof.Host.lean ====
/-
  What the two regions find in their operand arrays, in terms of the launch arrays.

  The first stretch of host operations computes, from the first weight matrix `W1`, its mean absolute value `s₁`, the
  matrix `sign W1 · s₁`, and its transpose, so the first region's right operand at `(e, q)` is `sign (W1 (q, e)) · s₁`;
  the bias vector becomes a one-row matrix.  The second stretch computes, from the first region's output array, its mean
  absolute value as a one-by-one matrix; it transposes the second weight matrix, so the second region's right operand at
  `(e, r)` is `W2 (r, e)`; the second bias vector becomes a one-row matrix.  No host operation and no region writes an
  argument, and the second stretch leaves the first region's output array as the region left it.
-/
import proofs.«131798_j82660940578899_1_alg».proof.Proof.Gen.KernelIdeal.Frame
import proofs.«131798_j82660940578899_1_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.HostStages

open Cert.KernelIdeal Cert.KernelIdeal.Gen Cert.BinaryNet
open Idealize.ShloMosaic Idealize.ShloMosaic.TcCoe Idealize.SL.Sem Idealize.ShloMosaic.ValueIdx
open Idealize.ShloMosaic.StableHlo

/-! ## The mean of the absolute values, as the host computes it -/

/-- Over the first weight matrix: the host's sum over both axes from zero, divided by the entry count, is the mean. -/
theorem mean_abs1 (y : S2048x2048.Idx → EReal) (i : S_.Idx) :
    Host.divf (Host.reduceAdd (Host.absf y) (constant (F := Ideal) S_ .f32 0x00000000#32) reducesTo_S2048x2048_S_d0_1 h_S_)
      (constant (F := Ideal) S_ .f32 0x4A800000#32) i = scale 0x4A800000#32 y := by
  have hsum : Host.reduceAdd (Host.absf y) (constant (F := Ideal) S_ .f32 0x00000000#32) reducesTo_S2048x2048_S_d0_1 h_S_ i
      = Ideal.ofBits .f32 0x00000000#32 + ∑ j : S2048x2048.Idx, max (y j) (-(y j)) := by
    simp only [Host.reduceAdd, Ideal.hostReduceAdd_def]
    exact Ideal.hostReduceAdd_total reducesTo_S2048x2048_S_d0_1 (fun b => b.elim0) _ _ i
  show Ideal.div (Host.reduceAdd (Host.absf y) (constant (F := Ideal) S_ .f32 0x00000000#32) reducesTo_S2048x2048_S_d0_1 h_S_ i)
    (Ideal.ofBits .f32 0x4A800000#32) = _
  rw [hsum]; rfl

/-- Over the pre-activations likewise. -/
theorem mean_abs2 (y : S8192x2048.Idx → EReal) (i : S_.Idx) :
    Host.divf (Host.reduceAdd (Host.absf y) (constant (F := Ideal) S_ .f32 0x00000000#32) reducesTo_S8192x2048_S_d0_1 h_S_)
      (constant (F := Ideal) S_ .f32 0x4B800000#32) i = scale 0x4B800000#32 y := by
  have hsum : Host.reduceAdd (Host.absf y) (constant (F := Ideal) S_ .f32 0x00000000#32) reducesTo_S8192x2048_S_d0_1 h_S_ i
      = Ideal.ofBits .f32 0x00000000#32 + ∑ j : S8192x2048.Idx, max (y j) (-(y j)) := by
    simp only [Host.reduceAdd, Ideal.hostReduceAdd_def]
    exact Ideal.hostReduceAdd_total reducesTo_S8192x2048_S_d0_1 (fun b => b.elim0) _ _ i
  show Ideal.div (Host.reduceAdd (Host.absf y) (constant (F := Ideal) S_ .f32 0x00000000#32) reducesTo_S8192x2048_S_d0_1 h_S_ i)
    (Ideal.ofBits .f32 0x4B800000#32) = _
  rw [hsum]; rfl

variable (m : (ℓ : Loc nD τ sig) → Buf (Elt Ideal) ℓ) (ρ : Dev nD → PrngReg)

/-! ## What the first region finds -/

/-- Its left operand is the first argument as launched. -/
theorem entry0_left (c : Dev nD) : V1 m ρ c main_arg0 = m ((c : Thread nD τ).loc main_arg0) := by
  show StableHlo.after hostOps0 (W0 m ρ c) (Proc.devRef .tc main_arg0) = _
  after_results <;> rfl

/-- Its right operand at `(e, q)` is the binarized weight `sign (W1 (q, e)) · s₁`. -/
theorem entry0_right (c : Dev nD) (e q : Fin 2048) :
    (V1 m ρ c main_v7 : S2048x2048.Idx → EReal) (ix2 e q)
      = Ideal.sign ((m ((c : Thread nD τ).loc main_arg1) : S2048x2048.Idx → EReal) (ix2 q e))
        * scale 0x4A800000#32 (m ((c : Thread nD τ).loc main_arg1) : S2048x2048.Idx → EReal) := by
  have h : (V1 m ρ c main_v7 : S2048x2048.Idx → EReal)
      = truncf .bf16 (transpose S2048x2048 [1, 0]
          (mulf (Host.sign (m ((c : Thread nD τ).loc main_arg1) : S2048x2048.Idx → EReal))
            (broadcastInDim S2048x2048 ![] bcast_S_S2048x2048
              (Host.divf (Host.reduceAdd (Host.absf (m ((c : Thread nD τ).loc main_arg1) : S2048x2048.Idx → EReal))
                (constant (F := Ideal) S_ .f32 0x00000000#32) reducesTo_S2048x2048_S_d0_1 h_S_)
                (constant (F := Ideal) S_ .f32 0x4A800000#32))))
          transposes_S2048x2048_S2048x2048_1_0) bitsLt_bf16_f32 := by
    show StableHlo.after hostOps0 (W0 m ρ c) (Proc.devRef .tc main_v7) = _
    after_results <;> rfl
  rw [h]
  show transpose S2048x2048 [1, 0]
      (mulf (Host.sign (m ((c : Thread nD τ).loc main_arg1) : S2048x2048.Idx → EReal))
        (broadcastInDim S2048x2048 ![] bcast_S_S2048x2048
          (Host.divf (Host.reduceAdd (Host.absf (m ((c : Thread nD τ).loc main_arg1) : S2048x2048.Idx → EReal))
            (constant (F := Ideal) S_ .f32 0x00000000#32) reducesTo_S2048x2048_S_d0_1 h_S_)
            (constant (F := Ideal) S_ .f32 0x4A800000#32))))
      transposes_S2048x2048_S2048x2048_1_0 (ix2 e q) = _
  rw [transpose_ix2_apply]
  show Ideal.sign ((m ((c : Thread nD τ).loc main_arg1) : S2048x2048.Idx → EReal) (ix2 q e))
      * broadcastInDim S2048x2048 ![] bcast_S_S2048x2048
          (Host.divf (Host.reduceAdd (Host.absf (m ((c : Thread nD τ).loc main_arg1) : S2048x2048.Idx → EReal))
            (constant (F := Ideal) S_ .f32 0x00000000#32) reducesTo_S2048x2048_S_d0_1 h_S_)
            (constant (F := Ideal) S_ .f32 0x4A800000#32)) (ix2 q e) = _
  rw [broadcastInDim_apply ![] bcast_S_S2048x2048 _ (ix2 q e) ix0 (fun a => a.elim0), mean_abs1]

/-- Its bias row at `(0, q)` is the first bias vector at `q`. -/
theorem entry0_bias (c : Dev nD) (q : Fin 2048) :
    (V1 m ρ c main_v8 : S1x2048.Idx → EReal) (ix2 (0 : Fin 1) q)
      = (m ((c : Thread nD τ).loc main_arg2) : S2048.Idx → EReal) (ix1 q) := by
  have h : (V1 m ρ c main_v8 : S1x2048.Idx → EReal)
      = shapeCast S1x2048 (m ((c : Thread nD τ).loc main_arg2) : S2048.Idx → EReal) shapeCasts_S2048_S1x2048 := by
    show StableHlo.after hostOps0 (W0 m ρ c) (Proc.devRef .tc main_v8) = _
    after_results <;> rfl
  rw [h, shapeCast_a_1a_apply]

/-! ## What the second region finds -/

/-- Its left operand is the first region's output array, which the second stretch does not write. -/
theorem entry1_left (c : Dev nD) : V3 m ρ c main_v9 = (dat0 (V1 m ρ) c).arrAt 3 cfg0.N := by
  have h : V3 m ρ c main_v9 = W2 m ρ c (Proc.devRef .tc main_v9) := by
    show StableHlo.after hostOps1 (W2 m ρ c) (Proc.devRef .tc main_v9) = _
    after_results
  exact h.trans (W2_arr m ρ c 3)

/-- The one entry of its scale operand is the mean absolute value of the first region's output array. -/
theorem entry1_scale (c : Dev nD) (i : S1x1.Idx) :
    (V3 m ρ c main_v13 : S1x1.Idx → EReal) i
      = scale 0x4B800000#32 ((dat0 (V1 m ρ) c).arrAt 3 cfg0.N : S8192x2048.Idx → EReal) := by
  have h : (V3 m ρ c main_v13 : S1x1.Idx → EReal)
      = shapeCast S1x1 (Host.divf (Host.reduceAdd (Host.absf (W2 m ρ c (Proc.devRef .tc main_v9) : S8192x2048.Idx → EReal))
          (constant (F := Ideal) S_ .f32 0x00000000#32) reducesTo_S8192x2048_S_d0_1 h_S_)
          (constant (F := Ideal) S_ .f32 0x4B800000#32)) shapeCasts_S_S1x1 := by
    show StableHlo.after hostOps1 (W2 m ρ c) (Proc.devRef .tc main_v13) = _
    after_results <;> rfl
  rw [h, ← W2_arr m ρ c 3]
  unfold shapeCast
  exact mean_abs2 _ _

/-- Its right operand at `(e, r)` is the second weight matrix at `(r, e)`. -/
theorem entry1_right (c : Dev nD) (e : Fin 2048) (r : Fin 1000) :
    (V3 m ρ c main_v15 : S2048x1000.Idx → EReal) (ix2 e r)
      = (m ((c : Thread nD τ).loc main_arg3) : S1000x2048.Idx → EReal) (ix2 r e) := by
  have h0 : W2 m ρ c (Proc.devRef .tc main_arg3) = m ((c : Thread nD τ).loc main_arg3) := by
    rw [W2_of_ne m ρ c main_arg3 (by decide)]
    show StableHlo.after hostOps0 (W0 m ρ c) (Proc.devRef .tc main_arg3) = _
    after_results <;> rfl
  have h : (V3 m ρ c main_v15 : S2048x1000.Idx → EReal)
      = (truncf .bf16 (transpose S2048x1000 [1, 0] (W2 m ρ c (Proc.devRef .tc main_arg3) : S1000x2048.Idx → EReal)
          transposes_S1000x2048_S2048x1000_1_0) bitsLt_bf16_f32 : FVec Ideal S2048x1000 .bf16) := by
    show StableHlo.after hostOps1 (W2 m ρ c) (Proc.devRef .tc main_v15) = _
    after_results <;> rfl
  rw [h, h0]
  show transpose S2048x1000 [1, 0] (m ((c : Thread nD τ).loc main_arg3) : S1000x2048.Idx → EReal)
      transposes_S1000x2048_S2048x1000_1_0 (ix2 e r) = _
  rw [transpose_ix2_apply]

/-- Its bias row at `(0, r)` is the second bias vector at `r`. -/
theorem entry1_bias (c : Dev nD) (r : Fin 1000) :
    (V3 m ρ c main_v16 : S1x1000.Idx → EReal) (ix2 (0 : Fin 1) r)
      = (m ((c : Thread nD τ).loc main_arg4) : S1000.Idx → EReal) (ix1 r) := by
  have h0 : W2 m ρ c (Proc.devRef .tc main_arg4) = m ((c : Thread nD τ).loc main_arg4) := by
    rw [W2_of_ne m ρ c main_arg4 (by decide)]
    show StableHlo.after hostOps0 (W0 m ρ c) (Proc.devRef .tc main_arg4) = _
    after_results <;> rfl
  have h : (V3 m ρ c main_v16 : S1x1000.Idx → EReal)
      = shapeCast S1x1000 (W2 m ρ c (Proc.devRef .tc main_arg4) : S1000.Idx → EReal) shapeCasts_S1000_S1x1000 := by
    show StableHlo.after hostOps1 (W2 m ρ c) (Proc.devRef .tc main_v16) = _
    after_results <;> rfl
  rw [h, h0, shapeCast_a_1a_apply]

end Cert.KernelIdeal.HostStages

end
-- ==== Proof.KernelIs.lean ====
/-
  The idealized kernel computes the network with the binarization `sign t · s`.

  The first region's output array is the affine map of what the region finds, and what it finds is `x`, the transposed
  binarized first weight matrix and the first bias: the pre-activations.  The second region finds those pre-activations,
  their mean absolute value, the transposed second weight matrix and the second bias; its second output is the rectified
  binarization of the pre-activations, the activations, and its first output is their scores, the network's output.
-/
import proofs.«131798_j82660940578899_1_alg».proof.Proof.Stage1
import proofs.«131798_j82660940578899_1_alg».proof.Proof.Stage2
import proofs.«131798_j82660940578899_1_alg».proof.Proof.Host
import proofs.«131798_j82660940578899_1_alg».proof.Proof.Spec

set_option maxRecDepth 16384

noncomputable section

namespace Cert.KernelIdeal.AsNet

open Cert.KernelIdeal Cert.KernelIdeal.Gen Cert.BinaryNet
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first region's output array holds the pre-activations. -/
theorem hidden_array (c : Dev nD) :
    ((dat0 (V1 m ρ) c).arrAt 3 cfg0.N : S8192x2048.Idx → EReal)
      = hidArr binK (m ((c : Thread nD τ).loc main_arg0)) (m ((c : Thread nD τ).loc main_arg1))
          (m ((c : Thread nD τ).loc main_arg2)) := by
  rw [Stage1.array_eq (V1 m ρ) c]
  funext i
  unfold Stage1.affineArr Stage1.affine hidArr hid
  refine congrArg₂ (· + ·) (Finset.sum_congr rfl fun e _ => congrArg₂ (· * ·) ?_ ?_) ?_
  · exact congrFun (HostStages.entry0_left m ρ c) _
  · exact HostStages.entry0_right m ρ c e (i 1)
  · exact HostStages.entry0_bias m ρ c (i 1)

/-- The second region's second output holds the activations. -/
theorem act_array (c : Dev nD) :
    ((dat1 (V3 m ρ) c).arrAt 5 cfg1.N : S8192x2048.Idx → EReal)
      = actArr binK (m ((c : Thread nD τ).loc main_arg0)) (m ((c : Thread nD τ).loc main_arg1))
          (m ((c : Thread nD τ).loc main_arg2)) := by
  rw [Stage2.act_array_eq (V3 m ρ) c, HostStages.entry1_left m ρ c, HostStages.entry1_scale m ρ c Stage2.origin,
    hidden_array m ρ c]
  rfl

/-- The second region's first output holds the network's output. -/
theorem out_array (c : Dev nD) :
    ((dat1 (V3 m ρ) c).arrAt 4 cfg1.N : S8192x1000.Idx → EReal)
      = outArr binK (m ((c : Thread nD τ).loc main_arg0)) (m ((c : Thread nD τ).loc main_arg1))
          (m ((c : Thread nD τ).loc main_arg2)) (m ((c : Thread nD τ).loc main_arg3))
          (m ((c : Thread nD τ).loc main_arg4)) := by
  rw [Stage2.out_array_eq (V3 m ρ) c, HostStages.entry1_left m ρ c, HostStages.entry1_scale m ρ c Stage2.origin,
    hidden_array m ρ c]
  funext i
  unfold Stage2.scoresArr Stage2.scores outArr outp
  refine congrArg₂ (· + ·) (Finset.sum_congr rfl fun e _ => congrArg₂ (· * ·) rfl ?_) ?_
  · exact HostStages.entry1_right m ρ c e (i 1)
  · exact HostStages.entry1_bias m ρ c (i 1)

end Cert.KernelIdeal.AsNet

end
-- ==== Proof.RefIs.lean ====
/-
  The reference program computes the network with the binarization `sign (t / s) · s`.

  Read one operation at a time at an index: the scale is the mean of the absolute weights; the transposed binarized
  weight at `(e, q)` is `sign (W1 (q, e) / s₁) · s₁`; the pre-activation at `(p, q)` is row `p` of `x` against that
  column plus `b1 q`; the second scale is the mean of the absolute pre-activations; the activation is the rectified
  binarization; the output is row `p` of the activations against row `r` of `W2` plus `b2 r`.
-/
import proofs.«131798_j82660940578899_1_alg».proof.Proof.Gen.ReferenceIdeal.Read
import proofs.«131798_j82660940578899_1_alg».proof.Proof.Spec

noncomputable section

namespace Cert.ReferenceIdeal.AsNet

open Cert.ReferenceIdeal Cert.ReferenceIdeal.Read Cert.BinaryNet
open Idealize.ShloMosaic Idealize.ShloMosaic.ValueIdx

variable (x0 : S8192x2048.Idx → EReal) (x1 : S2048x2048.Idx → EReal) (x2 : S2048.Idx → EReal)
  (x3 : S1000x2048.Idx → EReal) (x4 : S1000.Idx → EReal)

/-! ## The layout operations' index maps at explicit coordinates -/

theorem transposed_weight_idx (e q : Fin 2048) : idx_main_v8 (ix2 e q) = ix2 q e :=
  funext fun a => Fin.ext (by match a with | ⟨0, _⟩ => rfl | ⟨1, _⟩ => rfl)

theorem dot1_left_idx (p : Fin 8192) (q k : Fin 2048) : lidx_main_v9 (ix2 p q) k = ix2 p k :=
  funext fun a => Fin.ext (by match a with | ⟨0, _⟩ => rfl | ⟨1, _⟩ => rfl)

theorem dot1_right_idx (p : Fin 8192) (q k : Fin 2048) : ridx_main_v9 (ix2 p q) k = ix2 k q :=
  funext fun a => Fin.ext (by match a with | ⟨0, _⟩ => rfl | ⟨1, _⟩ => rfl)

theorem bias1_idx (p : Fin 8192) (q : Fin 2048) : idx_main_v10 (idx_main_v11 (ix2 p q)) = ix1 q :=
  funext fun a => Fin.ext (by match a with | ⟨0, _⟩ => rfl)

theorem transposed_w2_idx (k : Fin 2048) (r : Fin 1000) : idx_main_v22 (ix2 k r) = ix2 r k :=
  funext fun a => Fin.ext (by match a with | ⟨0, _⟩ => rfl | ⟨1, _⟩ => rfl)

theorem dot2_left_idx (p : Fin 8192) (r : Fin 1000) (k : Fin 2048) : lidx_main_v23 (ix2 p r) k = ix2 p k :=
  funext fun a => Fin.ext (by match a with | ⟨0, _⟩ => rfl | ⟨1, _⟩ => rfl)

theorem dot2_right_idx (p : Fin 8192) (r : Fin 1000) (k : Fin 2048) : ridx_main_v23 (ix2 p r) k = ix2 k r :=
  funext fun a => Fin.ext (by match a with | ⟨0, _⟩ => rfl | ⟨1, _⟩ => rfl)

theorem bias2_idx (p : Fin 8192) (r : Fin 1000) : idx_main_v24 (idx_main_v25 (ix2 p r)) = ix1 r :=
  funext fun a => Fin.ext (by match a with | ⟨0, _⟩ => rfl)

/-! ## The stages -/

/-- The first scale: the mean of the absolute weights. -/
theorem scale1 (i : S_.Idx) : val_main_v2 (F := Ideal) x1 i = scale 0x4A800000#32 x1 := by
  rw [val_main_v2_apply, val_main_v1_apply]; rfl

/-- The transposed binarized weight at `(e, q)`. -/
theorem weight (e q : Fin 2048) :
    val_main_v8 (F := Ideal) x1 (ix2 e q) = binR (x1 (ix2 q e)) (scale 0x4A800000#32 x1) := by
  rw [val_main_v8_apply, val_main_v7_apply, val_main_v5_apply, val_main_v4_apply, val_main_v3_apply,
    val_main_v6_apply, scale1, transposed_weight_idx]
  rfl

/-- The pre-activation at `(p, q)`. -/
theorem hidden (p : Fin 8192) (q : Fin 2048) :
    val_main_v12 (F := Ideal) x0 x1 x2 (ix2 p q) = hid binR x0 x1 x2 p q := by
  rw [val_main_v12_apply, val_main_v9_apply, val_main_v11_apply, val_main_v10_apply, bias1_idx]
  simp only [dot1_left_idx, dot1_right_idx, weight]
  rfl

/-- The pre-activations as an array. -/
theorem hiddenArr : val_main_v12 (F := Ideal) x0 x1 x2 = hidArr binR x0 x1 x2 :=
  funext fun i => (congrArg (val_main_v12 (F := Ideal) x0 x1 x2) (eq_ix2 i)).trans (hidden x0 x1 x2 (i 0) (i 1))

/-- The second scale: the mean of the absolute pre-activations. -/
theorem scale2 (i : S_.Idx) :
    val_main_v15 (F := Ideal) x0 x1 x2 i = scale 0x4B800000#32 (hidArr binR x0 x1 x2) := by
  rw [val_main_v15_apply, val_main_v14_apply, ← hiddenArr]; rfl

/-- The activation at `(p, q)`. -/
theorem activation (p : Fin 8192) (q : Fin 2048) :
    val_main_v21 (F := Ideal) x0 x1 x2 (ix2 p q) = act binR x0 x1 x2 p q := by
  rw [val_main_v21_apply, val_main_v20_apply, val_main_v18_apply, val_main_v17_apply, val_main_v16_apply,
    val_main_v19_apply, scale2, hidden, val_main_call0_v0_apply, val_main_call0_cst_apply]
  rfl

/-- The activations as an array: the reference's second result. -/
theorem activationArr : val_main_v21 (F := Ideal) x0 x1 x2 = actArr binR x0 x1 x2 :=
  funext fun i => (congrArg (val_main_v21 (F := Ideal) x0 x1 x2) (eq_ix2 i)).trans (activation x0 x1 x2 (i 0) (i 1))

/-- The output at `(p, r)`. -/
theorem output (p : Fin 8192) (r : Fin 1000) :
    val_main_v26 (F := Ideal) x0 x1 x2 x3 x4 (ix2 p r) = outp binR x0 x1 x2 x3 x4 p r := by
  rw [val_main_v26_apply, val_main_v23_apply, val_main_v25_apply, val_main_v24_apply, bias2_idx]
  simp only [dot2_left_idx, dot2_right_idx, activation, val_main_v22_apply, transposed_w2_idx]
  rfl

/-- The outputs as an array: the reference's first result. -/
theorem outputArr : val_main_v26 (F := Ideal) x0 x1 x2 x3 x4 = outArr binR x0 x1 x2 x3 x4 :=
  funext fun i =>
    (congrArg (val_main_v26 (F := Ideal) x0 x1 x2 x3 x4) (eq_ix2 i)).trans (output x0 x1 x2 x3 x4 (i 0) (i 1))

end Cert.ReferenceIdeal.AsNet

end
-- ==== Proof.Finite.lean ====
/-
  The precondition says every entry of every float argument is a real number.

  The printed predicate is a conjunction of five "all entries satisfy `|a| < +∞`" tests.  At the exact extended reals
  `|a| = max a (-a)`, and the literal `0x7F800000` denotes `+∞`, so each test says the entry is neither infinity: it is a
  real.  Only the first three arguments' tests are used.
-/
import proofs.«131798_j82660940578899_1_alg».proof.Pre_finite_inputs
import proofs.«131798_j82660940578899_1_alg».proof.Proof.Spec
import Idealize.ShloMosaic.PureOps.Ideal
import Idealize.ShloMosaic.Lib.ReduceAll
import Idealize.ShloMosaic.Lib.Affine
import Idealize.ShloMosaic.Lib.ValueIdx

noncomputable section

namespace Cert.Pre_finite_inputs.Decode

open Cert.Pre_finite_inputs Cert.BinaryNet Idealize.ShloMosaic

variable [Cert.Pre_finite_inputs.Facts]

instance : Subsingleton S_.Idx := ⟨fun a b => funext fun d => d.elim0⟩

/-- The pattern `0x7F800000` denotes `+∞`. -/
theorem ofBits_inf : Ideal.ofBits .f32 0x7F800000#32 = ⊤ := by simp [Ideal.ofBits, Ideal.ieee]

/-- An extended real whose absolute value is below `+∞` is a real. -/
theorem isReal_of_abs_lt (x : EReal)
    (h : Ideal.cmp .olt (max x (-x)) (Ideal.ofBits .f32 0x7F800000#32) = 1#1) : IsReal x := by
  rw [ofBits_inf] at h
  have h' : BitVec.ofBool (decide (max x (-x) < ⊤)) = 1#1 := h
  have hlt : max x (-x) < ⊤ := by
    by_contra hn
    rw [decide_eq_false hn] at h'
    exact absurd h' (by decide)
  induction x using EReal.rec with
  | bot => simp at hlt
  | top => simp at hlt
  | coe r => exact ⟨r, rfl⟩

/-- Under the precondition the first three arguments hold reals only. -/
theorem real_inputs (a0 : FVec Ideal S8192x2048 .f32) (a1 : FVec Ideal S2048x2048 .f32) (a2 : FVec Ideal S2048 .f32)
    (a3 : FVec Ideal S1000x2048 .f32) (a4 : FVec Ideal S1000 .f32)
    (h : fn (F := Ideal) a0 a1 a2 a3 a4 = fun _ => 1#1) :
    (∀ i, IsReal (a0 i)) ∧ (∀ i, IsReal (a1 i)) ∧ (∀ i, IsReal (a2 i)) := by
  have h0 := congrFun h ValueIdx.ix0
  dsimp only [fn, fn_part1] at h0
  simp only [andi, IntOp.andi_eq_one] at h0
  obtain ⟨⟨⟨⟨e0, e1⟩, e2⟩, -⟩, -⟩ := h0
  exact ⟨fun i => isReal_of_abs_lt (a0 i) (Host.reduce_andi_all _ _ _ _ _ e0 i),
    fun i => isReal_of_abs_lt (a1 i) (Host.reduce_andi_all _ _ _ _ _ e1 i),
    fun i => isReal_of_abs_lt (a2 i) (Host.reduce_andi_all _ _ _ _ _ e2 i)⟩

end Cert.Pre_finite_inputs.Decode

end
-- ==== Proof.lean ====
/-
  A two-layer network with sign-binarized weights and activations: a tiled two-kernel program against a plain reference.

  Both programs compute, from `x` [8192, 2048], `W1` [2048, 2048], `b1` [2048], `W2` [1000, 2048], `b2` [1000]:
  the mean `s₁` of `|W1|`; pre-activations `h = x · bin(W1, s₁)ᵀ + b1`; the mean `s₂` of `|h|`; activations
  `a = max (bin (h, s₂)) 0` (the second result); outputs `o = a · W2ᵀ + b2` (the first result).  They differ in the
  binarization only: the kernel program takes `sign t · s`, the reference `sign (t / s) · s`.  On real entries with a
  real scale `s ≥ 0` these agree (at `s = 0` both vanish, at `s > 0` dividing by `s` keeps the sign); the entries are
  real by the precondition (the weights) and as finite sums of products of reals (the pre-activations), and each scale is
  a nonnegative real as a mean of absolute values of reals.

  The kernel program's side: its run with the two results named (the launch over its four segments), each region's
  output array as one function of what the region finds (a block-by-block value and a cover of the rows), and what each
  region finds read through the host operations.  The reference's side: its run, each operation read at an index.  The
  sign the kernel computes through the sign bit is, after the sanctioned rewrite, `-1` below zero and `1` otherwise,
  selected where the entry is not zero: the exact sign.
-/
import proofs.«131798_j82660940578899_1_alg».proof.Defs
import proofs.«131798_j82660940578899_1_alg».proof.Proof.Gen.Kernel
import proofs.«131798_j82660940578899_1_alg».proof.Proof.Gen.Kernel.Frame
import proofs.«131798_j82660940578899_1_alg».proof.Proof.Gen.KernelIdeal
import proofs.«131798_j82660940578899_1_alg».proof.Proof.Gen.KernelIdeal.Frame
import proofs.«131798_j82660940578899_1_alg».proof.Proof.Gen.ReferenceIdeal
import proofs.«131798_j82660940578899_1_alg».proof.Proof.Gen.Pre_finite_inputs
import proofs.«131798_j82660940578899_1_alg».proof.Proof.Gen.ReferenceIdeal.Run
import proofs.«131798_j82660940578899_1_alg».proof.Proof.Gen.ReferenceIdeal.Read
import proofs.«131798_j82660940578899_1_alg».proof.Proof.Spec
import proofs.«131798_j82660940578899_1_alg».proof.Proof.KernelRun
import proofs.«131798_j82660940578899_1_alg».proof.Proof.KernelIs
import proofs.«131798_j82660940578899_1_alg».proof.Proof.RefIs
import proofs.«131798_j82660940578899_1_alg».proof.Proof.Finite
import Idealize.ShloMosaic.Adequacy
import Idealize.ShloMosaic.Init
import Idealize.ShloMosaic.PureOps.IdealRules

noncomputable section

namespace Cert.Proof

open Idealize.ShloMosaic Idealize.SL.Sem Cert.BinaryNet

/-- The word-level kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The one rewrite of the idealization: `1.0` carrying the sign bit of an entry is `-1` where the entry is below zero
    and `1` elsewhere. -/
theorem preserves : Cert.preserves_Kernel_KernelIdeal :=
  IdealRules.sign_bit.statement Cert.KernelIdeal.S512x2048 .f32

/-- From memories agreeing on the arguments both programs end with the network's output and activations: the kernel
    program's with `sign t · s`, the reference's with `sign (t / s) · s`, which agree because the first three arguments
    hold reals. -/
theorem algebraic : Cert.algebraic_KernelIdeal_ReferenceIdeal := by
  intro m ρ m' ρ' hpre hagree
  refine ⟨fun c => outArr binK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    fun c => actArr binK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.AsNet.out_array m ρ c),
        (h c).2.1.trans (Cert.KernelIdeal.AsNet.act_array m ρ c), (h c).2.2⟩)
      (Cert.KernelIdeal.Outputs.run (F := Ideal) m ρ)
  · refine (θ_run Cert.ReferenceIdeal.defs _ _).mono (fun r h c => ⟨?_, ?_, (h c).2.2⟩)
      (Cert.ReferenceIdeal.Value.run (F := Ideal) m' ρ')
    · obtain ⟨hx, hW1, hb1⟩ := Cert.Pre_finite_inputs.Decode.real_inputs _ _ _ _ _ (hpre c)
      rw [(h c).1, Cert.ReferenceIdeal.Read.val_main_v26_eq, Cert.ReferenceIdeal.AsNet.outputArr,
        (hagree c).1, (hagree c).2.1, (hagree c).2.2.1, (hagree c).2.2.2.1, (hagree c).2.2.2.2]
      exact outArr_agree _ _ _ _ _ hx hW1 hb1
    · obtain ⟨hx, hW1, hb1⟩ := Cert.Pre_finite_inputs.Decode.real_inputs _ _ _ _ _ (hpre c)
      rw [(h c).2.1, Cert.ReferenceIdeal.Read.val_main_v21_eq, Cert.ReferenceIdeal.AsNet.activationArr,
        (hagree c).1, (hagree c).2.1, (hagree c).2.2.1]
      exact actArr_agree _ _ _ hx hW1 hb1

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
